-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg15 : FVec F S128x128 .f32) (main_arg16 : FVec F S128 .f32) (main_v33 : IVec S_ 1) : IVec S_ 1 :=
  let main_v34 : FVec F S128x128 .f32 := Host.absf main_arg15
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg16
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg12 : FVec F S128x128 .f32) (main_arg13 : FVec F S128 .f32) (main_arg14 : FVec F S128x128 .f32) (main_arg15 : FVec F S128x128 .f32) (main_arg16 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg12
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg13
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg14
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg15 main_arg16 main_v33

def fn {F : FTy → Type} [FloatOps F] (main_arg0 : FVec F S100000x128 .f32) (main_arg1 : IVec S1600000 32) (main_arg2 : IVec S1600000 32) (main_arg3 : IVec S1600000 32) (main_arg4 : IVec S1600000 32) (main_arg5 : IVec S100000 32) (main_arg6 : IVec S100000 32) (main_arg7 : IVec S500000 32) (main_arg8 : IVec S500000 32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg9
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg10
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg11
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg12 main_arg13 main_arg14 main_arg15 main_arg16 main_v13 main_v16
-- ==== Kernel.lean ====
abbrev S100000x128 : Shape := ⟨2, ![100000, 128]⟩
abbrev S1600000 : Shape := ⟨1, ![1600000]⟩
abbrev S100000 : Shape := ⟨1, ![100000]⟩
abbrev S500000 : Shape := ⟨1, ![500000]⟩
abbrev S128x128 : Shape := ⟨2, ![128, 128]⟩
abbrev S128 : Shape := ⟨1, ![128]⟩
abbrev S5000x128 : Shape := ⟨2, ![5000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S10000x128 : Shape := ⟨2, ![10000, 128]⟩
abbrev S10000x1 : Shape := ⟨2, ![10000, 1]⟩
abbrev S10000 : Shape := ⟨1, ![10000]⟩
abbrev S500000x1 : Shape := ⟨2, ![500000, 1]⟩
abbrev S500000x128 : Shape := ⟨2, ![500000, 128]⟩

abbrev nBuf : Space → Nat
  | .hbm => 110
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .i32⟩
  | .hbm, ⟨4, _⟩ => ⟨S1600000, .i32⟩
  | .hbm, ⟨5, _⟩ => ⟨S100000, .i32⟩
  | .hbm, ⟨6, _⟩ => ⟨S100000, .i32⟩
  | .hbm, ⟨7, _⟩ => ⟨S500000, .i32⟩
  | .hbm, ⟨8, _⟩ => ⟨S500000, .i32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x128, .f32⟩
  | .hbm, ⟨16, _⟩ => ⟨S128, .f32⟩
  | .hbm, ⟨17, _⟩ => ⟨S100000x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S100000, .f32⟩
  | .hbm, ⟨35, _⟩ => ⟨S1600000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S_, .f32⟩
  | .hbm, ⟨58, _⟩ => ⟨S1600000, .f32⟩
  | .hbm, ⟨59, _⟩ => ⟨S_, .f32⟩
  | .hbm, ⟨60, _⟩ => ⟨S100000, .f32⟩
  | .hbm, ⟨61, _⟩ => ⟨S1600000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S100000, .i32⟩
  | .hbm, ⟨72, _⟩ => ⟨S100000, .i1⟩
  | .hbm, ⟨73, _⟩ => ⟨S_, .i32⟩
  | .hbm, ⟨74, _⟩ => ⟨S100000, .i32⟩
  | .hbm, ⟨75, _⟩ => ⟨S100000, .i32⟩
  | .hbm, ⟨76, _⟩ => ⟨S100000, .i32⟩
  | .hbm, ⟨77, _⟩ => ⟨S100000x1, .i32⟩
  | .hbm, ⟨78, _⟩ => ⟨S100000x128, .f32⟩
  | .hbm, ⟨79, _⟩ => ⟨S_, .i32⟩
  | .hbm, ⟨80, _⟩ => ⟨S100000, .i32⟩
  | .hbm, ⟨81, _⟩ => ⟨S100000, .i1⟩
  | .hbm, ⟨82, _⟩ => ⟨S_, .i32⟩
  | .hbm, ⟨83, _⟩ => ⟨S100000, .i32⟩
  | .hbm, ⟨84, _⟩ => ⟨S100000, .i32⟩
  | .hbm, ⟨85, _⟩ => ⟨S100000, .i32⟩
  | .hbm, ⟨86, _⟩ => ⟨S100000x1, .i32⟩
  | .hbm, ⟨87, _⟩ => ⟨S100000x128, .f32⟩
  | .hbm, ⟨88, _⟩ => ⟨S100000x1, .f32⟩
  | .hbm, ⟨89, _⟩ => ⟨S100000, .f32⟩
  | .hbm, ⟨90, _⟩ => ⟨S_, .i32⟩
  | .hbm, ⟨91, _⟩ => ⟨S500000, .i32⟩
  | .hbm, ⟨92, _⟩ => ⟨S500000, .i1⟩
  | .hbm, ⟨93, _⟩ => ⟨S_, .i32⟩
  | .hbm, ⟨94, _⟩ => ⟨S500000, .i32⟩
  | .hbm, ⟨95, _⟩ => ⟨S500000, .i32⟩
  | .hbm, ⟨96, _⟩ => ⟨S500000, .i32⟩
  | .hbm, ⟨97, _⟩ => ⟨S500000x1, .i32⟩
  | .hbm, ⟨98, _⟩ => ⟨S500000x128, .f32⟩
  | .hbm, ⟨99, _⟩ => ⟨S_, .i32⟩
  | .hbm, ⟨100, _⟩ => ⟨S500000, .i32⟩
  | .hbm, ⟨101, _⟩ => ⟨S500000, .i1⟩
  | .hbm, ⟨102, _⟩ => ⟨S_, .i32⟩
  | .hbm, ⟨103, _⟩ => ⟨S500000, .i32⟩
  | .hbm, ⟨104, _⟩ => ⟨S500000, .i32⟩
  | .hbm, ⟨105, _⟩ => ⟨S500000, .i32⟩
  | .hbm, ⟨106, _⟩ => ⟨S500000x1, .i32⟩
  | .hbm, ⟨107, _⟩ => ⟨S500000x128, .f32⟩
  | .hbm, ⟨108, _⟩ => ⟨S500000x1, .f32⟩
  | .hbm, ⟨109, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x1, .f32⟩
  | .local _ .vmem, ⟨29, _⟩ => ⟨S10000x1, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x1, .f32⟩
  | .local _ .vmem, ⟨35, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_7 : Ref sig .tc := ⟨.hbm, 57, rfl⟩
abbrev main_v31 : Ref sig .tc := ⟨.hbm, 58, rfl⟩
abbrev main_cst_8 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_9 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_10 : Ref sig .tc := ⟨.hbm, 70, rfl⟩
abbrev main_v41 : Ref sig .tc := ⟨.hbm, 71, rfl⟩
abbrev main_v42 : Ref sig .tc := ⟨.hbm, 72, rfl⟩
abbrev main_c_11 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_12 : Ref sig .tc := ⟨.hbm, 79, rfl⟩
abbrev main_v48 : Ref sig .tc := ⟨.hbm, 80, rfl⟩
abbrev main_v49 : Ref sig .tc := ⟨.hbm, 81, rfl⟩
abbrev main_c_13 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_14 : Ref sig .tc := ⟨.hbm, 90, rfl⟩
abbrev main_v57 : Ref sig .tc := ⟨.hbm, 91, rfl⟩
abbrev main_v58 : Ref sig .tc := ⟨.hbm, 92, rfl⟩
abbrev main_c_15 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_16 : Ref sig .tc := ⟨.hbm, 99, rfl⟩
abbrev main_v64 : Ref sig .tc := ⟨.hbm, 100, rfl⟩
abbrev main_v65 : Ref sig .tc := ⟨.hbm, 101, rfl⟩
abbrev main_c_17 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S10000x128_S10000 : S10000x128.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  bcast_S_S500000 : S_.BroadcastsInDim S500000 (![] : Fin 0 → Fin S500000.rank)
  bcast_S500000_S500000x1_0 : S500000.BroadcastsInDim S500000x1 (![0] : Fin 1 → Fin S500000x1.rank)
  shapeCasts_S500000x1_S500000 : S500000x1.ShapeCasts S500000
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S100000x128_S100000x1_S100000x128_1_0_n_n_0_1_1128_wf : GatherDims.WF S100000x128 S100000x1 S100000x128 [1] [0] [] [0] [] 1 ![1, 128]
  gather_S100000x128_S500000x1_S500000x128_1_0_n_n_0_1_1128_wf : GatherDims.WF S100000x128 S500000x1 S500000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S100000x128.size a
  hwx3_1 : ∀ i : grid3.Coords, EltTy.bits .f32 = 32 ∨ (Rect.block (s := S100000x128) S10000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S500000x128.size a
  hwx4_0 : ∀ i : grid4.Coords, EltTy.bits .f32 = 32 ∨ (Rect.block (s := S500000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S500000x128.size a
  hwx4_1 : ∀ i : grid4.Coords, EltTy.bits .f32 = 32 ∨ (Rect.block (s := S500000x128) S10000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S500000x1.size a
  hwx4_2 : ∀ i : grid4.Coords, EltTy.bits .f32 = 32 ∨ (Rect.block (s := S500000x1) S10000x1.size (cc4_transform_2 i) (hinb4_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v20) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v47) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S10000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v71) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S500000 : Shape := ⟨1, ![500000]⟩
abbrev S128x128 : Shape := ⟨2, ![128, 128]⟩
abbrev S128 : Shape := ⟨1, ![128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S500000x1 : Shape := ⟨2, ![500000, 1]⟩
abbrev S500000x128 : Shape := ⟨2, ![500000, 128]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .i32⟩
  | 4 => ⟨S1600000, .i32⟩
  | 5 => ⟨S100000, .i32⟩
  | 6 => ⟨S100000, .i32⟩
  | 7 => ⟨S500000, .i32⟩
  | 8 => ⟨S500000, .i32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S_, .f32⟩
  | 38 => ⟨S1600000, .f32⟩
  | 39 => ⟨S_, .f32⟩
  | 40 => ⟨S100000, .f32⟩
  | 41 => ⟨S1600000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x128, .f32⟩
  | 48 => ⟨S100000x128, .f32⟩
  | 49 => ⟨S100000x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x128, .f32⟩
  | 82 => ⟨S100000x128, .f32⟩
  | 83 => ⟨S100000x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .i32⟩
  | 90 => ⟨S100000, .i32⟩
  | 91 => ⟨S100000, .i1⟩
  | 92 => ⟨S_, .i32⟩
  | 93 => ⟨S100000, .i32⟩
  | 94 => ⟨S100000, .i32⟩
  | 95 => ⟨S100000, .i32⟩
  | 96 => ⟨S100000x1, .i32⟩
  | 97 => ⟨S100000x128, .f32⟩
  | 98 => ⟨S_, .i32⟩
  | 99 => ⟨S100000, .i32⟩
  | 100 => ⟨S100000, .i1⟩
  | 101 => ⟨S_, .i32⟩
  | 102 => ⟨S100000, .i32⟩
  | 103 => ⟨S100000, .i32⟩
  | 104 => ⟨S100000, .i32⟩
  | 105 => ⟨S100000x1, .i32⟩
  | 106 => ⟨S100000x128, .f32⟩
  | 107 => ⟨S100000x128, .f32⟩
  | 108 => ⟨S_, .f32⟩
  | 109 => ⟨S100000, .f32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S500000x128, .f32⟩
  | 119 => ⟨S_, .i32⟩
  | 120 => ⟨S500000, .i32⟩
  | 121 => ⟨S500000, .i1⟩
  | 122 => ⟨S_, .i32⟩
  | 123 => ⟨S500000, .i32⟩
  | 124 => ⟨S500000, .i32⟩
  | 125 => ⟨S500000, .i32⟩
  | 126 => ⟨S500000x1, .i32⟩
  | 127 => ⟨S500000x128, .f32⟩
  | _ => ⟨S100000x128, .f32⟩

abbrev hbmTy0_1 (i : Nat) : BufTy := match i % 128 with
  | 0 => ⟨S500000x128, .f32⟩
  | 1 => ⟨S_, .f32⟩
  | 2 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_cst_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_3 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call1_cst : Ref sig .tc := ⟨.hbm, 55, rfl⟩
abbrev main_call1_v0 : Ref sig .tc := ⟨.hbm, 56, rfl⟩
abbrev main_v30 : Ref sig .tc := ⟨.hbm, 57, rfl⟩
abbrev main_c_4 : Ref sig .tc := ⟨.hbm, 58, rfl⟩
abbrev main_v31 : Ref sig .tc := ⟨.hbm, 59, rfl⟩
abbrev main_v32 : Ref sig .tc := ⟨.hbm, 60, rfl⟩
abbrev main_c_5 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_7 : Ref sig .tc := ⟨.hbm, 71, rfl⟩
abbrev main_v41 : Ref sig .tc := ⟨.hbm, 72, rfl⟩
abbrev main_cst_8 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_9 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_10 : Ref sig .tc := ⟨.hbm, 89, rfl⟩
abbrev main_v56 : Ref sig .tc := ⟨.hbm, 90, rfl⟩
abbrev main_v57 : Ref sig .tc := ⟨.hbm, 91, rfl⟩
abbrev main_c_11 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_12 : Ref sig .tc := ⟨.hbm, 98, rfl⟩
abbrev main_v63 : Ref sig .tc := ⟨.hbm, 99, rfl⟩
abbrev main_v64 : Ref sig .tc := ⟨.hbm, 100, rfl⟩
abbrev main_c_13 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_14 : Ref sig .tc := ⟨.hbm, 108, rfl⟩
abbrev main_v71 : Ref sig .tc := ⟨.hbm, 109, rfl⟩
abbrev main_c_15 : Ref sig .tc := ⟨.hbm, 110, rfl⟩
abbrev main_v72 : Ref sig .tc := ⟨.hbm, 111, rfl⟩
abbrev main_v73 : Ref sig .tc := ⟨.hbm, 112, rfl⟩
abbrev main_c_16 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_17 : Ref sig .tc := ⟨.hbm, 119, rfl⟩
abbrev main_v79 : Ref sig .tc := ⟨.hbm, 120, rfl⟩
abbrev main_v80 : Ref sig .tc := ⟨.hbm, 121, rfl⟩
abbrev main_c_18 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_19 : Ref sig .tc := ⟨.hbm, 129, rfl⟩
abbrev main_v87 : Ref sig .tc := ⟨.hbm, 130, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S_S500000 : S_.BroadcastsInDim S500000 (![] : Fin 0 → Fin S500000.rank)
  bcast_S500000_S500000x1_0 : S500000.BroadcastsInDim S500000x1 (![0] : Fin 1 → Fin S500000x1.rank)
  reducesTo_S500000x128_S500000_d1 : S500000x128.ReducesTo [1] S500000
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S100000x128_S100000x1_S100000x128_1_0_n_n_0_1_1128_wf : GatherDims.WF S100000x128 S100000x1 S100000x128 [1] [0] [] [0] [] 1 ![1, 128]
  gather_S100000x128_S500000x1_S500000x128_1_0_n_n_0_1_1128_wf : GatherDims.WF S100000x128 S500000x1 S500000x128 [1] [0] [] [0] [] 1 ![1, 128]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf

class Facts : Prop extends Facts₀ where

variable [Facts]
-- ==== Proof.KernelRun.lean ====
/-
  The run of the idealized kernel program with its two results named.

  The program is five grid regions among stretches of host operations. Folding the contents of every buffer
  through those ten segments gives, for each core `c`, the contents `W10 m ρ c` of its buffers when @main returns,
  as a function of the launch memory `m`. Launching the ten segments shows that every unscoped buffer ends at its
  `W10` contents. Read at the two result buffers, that says: the positive scores end at `W10 … main_v56`, the
  negative scores at `W10 … main_v72`; read at the seventeen argument buffers, which no segment writes, it says
  that the arguments end as launched.
-/
import proofs.«176611_j23252952940854_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel program terminates without a fault, with both score
    arrays at the folded contents `W10` and every argument array as launched. -/
theorem run : θ_run defs (onTc (τ := τ) (main (F := F))) ⟨m, fun _ => 0, ρ⟩ (fun r => ∀ c : Dev nD,
      r.2.mem ((c.tc : Thread nD τ).loc main_v56) = W10 m ρ c (Proc.devRef .tc main_v56)
      ∧ r.2.mem ((c.tc : Thread nD τ).loc main_v72) = W10 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v56 (by decide)),
       h c _ (mem_uc main_v72 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c)⟩)

end Cert.KernelIdeal.Results

end
-- ==== Proof.Keeps.lean ====
/-
  A stretch of host operations keeps every buffer none of its operations writes: the one fact by which a buffer's
  contents are carried unchanged across a stretch.
-/
import proofs.«176611_j23252952940854_1_alg».proof.Proof.Gen.KernelIdeal.Frame
import Idealize.ShloMosaic.Lib.StableHlo.Run

namespace Cert.KernelIdeal.Fold

open Idealize.ShloMosaic

/-- Closes `W(2k) m ρ c b = W(2k-1) m ρ c b` for a buffer `b` that stretch k does not write: each operation of the
    stretch writes one buffer, and that buffer is decidably another one. -/
macro "host_keeps " ops:ident b:ident : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

end Cert.KernelIdeal.Fold
-- ==== Proof.Dense.lean ====
/-
  The three kernel bodies of the idealized program, read at one index of their output block.

  Every dense stage of the network is a product of a block of node rows with a 128×128 weight matrix. At the ideal
  instance the changes of float format are the identity and a matrix product into a zero accumulator is the plain
  sum over the contracted axis, so the bodies read:

    projection   (row p, column q):  max (∑ k, x(p,k) · w(k,q) + b(q)) 0
    combination  (row p, column q):  (∑ k, h(p,k) · ws(k,q) + ∑ k, a(p,k) · wn(k,q)) + b(q), then max with 0 in layer 1
    scoring      (row p):            ∑ k, s(p,k) · t(p,k)

  Nothing here uses a law of the extended reals beyond 0 + x = x for the zero accumulator: no factor is moved
  across a sum, so no finiteness of the inputs is needed.
-/
import proofs.«176611_j23252952940854_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Dense

open Cert.KernelIdeal Cert.KernelIdeal.Gen Idealize.ShloMosaic Idealize.ShloMosaic.ValueIdx

/-- The zero word as an extended real (it is the real 0; it is never evaluated here, only matched on both sides). -/
abbrev z32 : EReal := Ideal.ofBits .f32 0x00000000#32

/-! ## A block of 5000 rows times a 128×128 matrix -/

/-- The record of the block product: rows of the left operand against columns of the right one. -/
abbrev D5 : DotDims S5000x128 S128x128 S5000x128 := dot_S5000x128_S128x128_S5000x128_1_0_0_1_n_n

theorem D5_lhs0 (i : S5000x128.Idx) (q : D5.contr.Idx) : (D5.lhsIdx i q 0).val = (i 0).val := by
  unfold DotDims.lhsIdx
  rw [dif_neg (show ¬(0 : Fin S5000x128.rank) ∈ D5.lhsBatch by decide), dif_pos (show (0 : Fin S5000x128.rank) ∈ D5.lhsNonContracting by decide)]
  rfl
theorem D5_lhs1 (i : S5000x128.Idx) (q : D5.contr.Idx) : (D5.lhsIdx i q 1).val = (q ⟨0, by decide⟩).val :=
  D5.lhsIdx_val_of_single rfl i q
theorem D5_rhs0 (i : S5000x128.Idx) (q : D5.contr.Idx) : (D5.rhsIdx i q 0).val = (q ⟨0, by decide⟩).val :=
  D5.rhsIdx_val_of_single rfl i q
theorem D5_rhs1 (i : S5000x128.Idx) (q : D5.contr.Idx) : (D5.rhsIdx i q 1).val = (i 1).val := by
  unfold DotDims.rhsIdx
  rw [dif_neg (show ¬(1 : Fin S128x128.rank) ∈ D5.rhsBatch by decide), dif_pos (show (1 : Fin S128x128.rank) ∈ D5.rhsNonContracting by decide)]
  rfl

/-- Entry (p, q) of a block product into the zero accumulator is row p of the left operand against column q of the
    right one. -/
theorem matmul_at (l : FVec Ideal S5000x128 .bf16) (r : FVec Ideal S128x128 .bf16) (p : Fin 5000) (q : Fin 128) :
    matmul D5 none l r (constant (F := Ideal) S5000x128 .f32 0x00000000#32) (ix2 p q)
      = ∑ k : Fin 128, l (ix2 p k) * r (ix2 k q) := by
  refine (Ideal.matmul_constant_zero_apply D5 none l r (ix2 p q)).trans ?_
  rw [← Equiv.sum_comp (contrEquiv1 D5 128 rfl rfl).symm]
  refine Finset.sum_congr rfl fun k _ => ?_
  have hk := contrEquiv1_symm_val D5 128 rfl rfl k
  have el : D5.lhsIdx (ix2 p q) ((contrEquiv1 D5 128 rfl rfl).symm k) = ix2 p k := funext fun a => Fin.ext (by
    match a with
    | ⟨0, _⟩ => exact D5_lhs0 _ _
    | ⟨1, _⟩ => exact (D5_lhs1 _ _).trans hk)
  have er : D5.rhsIdx (ix2 p q) ((contrEquiv1 D5 128 rfl rfl).symm k) = ix2 k q := funext fun a => Fin.ext (by
    match a with
    | ⟨0, _⟩ => exact (D5_rhs0 _ _).trans hk
    | ⟨1, _⟩ => exact D5_rhs1 _ _)
  rw [el, er]

/-- The bias row laid over the block: entry (p, q) is b(q). -/
theorem bias_at (b : Vec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-! ## The projection body -/

theorem proj_at (x : Vec Ideal S5000x128 .f32) (w : Vec Ideal S128x128 .f32) (b : Vec Ideal S128 .f32) (p : Fin 5000) (q : Fin 128) :
    k0_pay1 (F := Ideal) x w b (ix2 p q) = max ((∑ k : Fin 128, x (ix2 p k) * w (ix2 k q)) + b (ix1 q)) z32 := by
  unfold k0_pay1
  exact congrArg₂ max (congrArg₂ (· + ·) (matmul_at (truncf .bf16 x bitsLt_bf16_f32) (truncf .bf16 w bitsLt_bf16_f32) p q) (bias_at b p q)) rfl

end Cert.KernelIdeal.Dense

end
-- ==== Proof.Spec.lean ====
/-
  The dense stages of the network as functions of whole arrays, index by index, over the extended reals.

  With 100000 nodes of 128 features, weight matrices w, ws, wn of 128 × 128 and a bias b of 128:

    proj x w b (r, q)             = max (∑ k, x(r,k) · w(k,q) + b(q)) 0
    mixed h a ws wn b (r, q)      = (∑ k, h(r,k) · ws(k,q) + ∑ k, a(r,k) · wn(k,q)) + b(q)
    layer1 h a ws wn b (r, q)     = max (mixed h a ws wn b (r, q)) 0
    rowDots n s t (e, 0)          = ∑ k, s(e,k) · t(e,k)            (a column of n row-wise dot products)

  Both programs compute exactly these; they differ in how the work is cut into blocks. Row r of each result depends
  on row r of the operands only, which is why the cut does not matter.
-/
import proofs.«176611_j23252952940854_1_alg».proof.Proof.Dense

noncomputable section

namespace Cert.KernelIdeal.Spec

open Cert.KernelIdeal Cert.KernelIdeal.Dense Idealize.ShloMosaic Idealize.ShloMosaic.ValueIdx

/-- The row coordinate of an index of an [n, c] array, as a number below n. -/
abbrev row {n c : ℕ} (i : (⟨2, ![n, c]⟩ : Shape).Idx) : Fin n := ⟨(i 0).val, idx2_lt0 i⟩
/-- The column coordinate of an index of an [n, c] array, as a number below c. -/
abbrev col {n c : ℕ} (i : (⟨2, ![n, c]⟩ : Shape).Idx) : Fin c := ⟨(i 1).val, idx2_lt1 i⟩

/-- The projection of the node table followed by the maximum with 0. -/
def proj (x : S100000x128.Idx → EReal) (w : S128x128.Idx → EReal) (b : S128.Idx → EReal) : S100000x128.Idx → EReal :=
  fun i => max ((∑ k : Fin 128, x (ix2 (row i) k) * w (ix2 k (col i))) + b (ix1 (col i))) z32

/-- A node's own features against one matrix plus its neighbourhood mean against another, plus the bias. -/
def mixed (h a : S100000x128.Idx → EReal) (ws wn : S128x128.Idx → EReal) (b : S128.Idx → EReal) : S100000x128.Idx → EReal :=
  fun i => ((∑ k : Fin 128, h (ix2 (row i) k) * ws (ix2 k (col i))) + (∑ k : Fin 128, a (ix2 (row i) k) * wn (ix2 k (col i))))
    + b (ix1 (col i))

/-- The first layer: the mixed sum followed by the maximum with 0. -/
def layer1 (h a : S100000x128.Idx → EReal) (ws wn : S128x128.Idx → EReal) (b : S128.Idx → EReal) : S100000x128.Idx → EReal :=
  fun i => max (mixed h a ws wn b i) z32

/-- The row-wise dot products of two [n, 128] arrays, as the column [n, 1]. -/
def rowDots (n : ℕ) (s t : (⟨2, ![n, 128]⟩ : Shape).Idx → EReal) : (⟨2, ![n, 1]⟩ : Shape).Idx → EReal :=
  fun i => ∑ k : Fin 128, s (ix2 (row i) k) * t (ix2 (row i) k)

end Cert.KernelIdeal.Spec

end
-- ==== Proof.ProjRegion.lean ====
/-
  What the projection region leaves in its output array, for any contents `V` of the buffers at its entry.

  The region walks 20 grid points; point t loads rows 5000·t … 5000·t + 4999 of the node table together with the
  whole weight matrix and bias, and writes the same rows of the output. Row r of the output therefore depends on row
  r of the input alone, and the 20 row blocks tile the 100000 rows, so the output array is ONE function of the
  input arrays:

      proj x w b (r, q) = max (∑ k, x(r,k) · w(k,q) + b(q)) 0 .
-/
import proofs.«176611_j23252952940854_1_alg».proof.Proof.Gen.KernelIdeal.Frame
import proofs.«176611_j23252952940854_1_alg».proof.Proof.Spec

set_option maxRecDepth 16384

noncomputable section

namespace Cert.KernelIdeal.ProjRegion

open Cert.KernelIdeal Cert.KernelIdeal.Gen Cert.KernelIdeal.Dense Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The index maps over the grid: the input rows move with the output rows, the weight matrix and the bias are
    fetched whole at every point, and the output's row block number stays below 20. -/
theorem aligned : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 19 :=
  (by decide +kernel : ∀ t : Fin grid0.N, _)

/-- Every one of the 20 row blocks is some grid point's. -/
theorem onto : ∀ q0 : Fin 20, ∃ t : Fin cfg0.N, win0_3.index t (0 : Fin 2) = q0.val :=
  (by decide +kernel : ∀ q0 : Fin 20, ∃ t : Fin grid0.N, win0_3.index t (0 : Fin 2) = q0.val)

/-- What grid point t writes back is block t of the projection of the arrays as the region finds them. -/
theorem flushed_eq (c : Dev nD) (t : Fin cfg0.N) :
    (dat0 V c).flushed 3 t
      = ((cfg0.win 3).blk t).view.read (Elt Ideal) (proj (V c main_arg0) (V c main_arg9) (V c main_arg10)) := by
  show (cfg0.win 3).cut (grid0.coords t) ((dat0 V c).after 3 t) = _
  rw [after0_3]
  unfold out0_3
  rw [View.canon_unit_zero zeros2]
  simp only [View.ld_unit_zero (S := S5000x128) zeros2, View.ld_unit_zero (S := S128x128) zeros2, View.ld_unit_zero (S := S128) zeros1]
  obtain ⟨e0, e1, e2, e3, e4, e5, e6⟩ := aligned t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = proj (V c main_arg0) (V c main_arg9) (V c main_arg10) (((cfg0.win 3).blk t).view.emb (ix2 p q))
  refine (proj_at _ _ _ p q).trans ?_
  unfold proj
  refine congrArg₂ max (congrArg₂ (· + ·) (Finset.sum_congr rfl fun k _ => congrArg₂ (· * ·) ?_ ?_) ?_) rfl
  · -- row p of the input block is row 5000·t + p of the node table
    show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · -- the weight matrix is fetched whole
    show V c main_arg9 (((cfg0.win 1).blk t).view.emb (ix2 k q)) = V c main_arg9 _
    refine congrArg (V c main_arg9) (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  · -- and so is the bias
    show V c main_arg10 (((cfg0.win 2).blk t).view.emb (ix1 q)) = V c main_arg10 _
    refine congrArg (V c main_arg10) (funext fun a => Fin.ext ?_)
    match a with
    | ⟨0, _⟩ => show win0_2.index t (0 : Fin 1) * 128 + 1 * q.val = win0_3.index t (1 : Fin 2) * 128 + 1 * q.val; omega

/-- An index of the output array lies in point t's block iff each coordinate lies in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v0).slice (win0_3.rect t)).set ↔ _
  rw [View.set_slice_whole, Rect.mem_set_unit]
  exact Iff.rfl

/-- The 20 row blocks tile the 100000 rows: row r lies in the block of the point whose block number is r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := onto ⟨(i 0).val / 5000, by omega⟩
  have ht' : win0_3.index t (0 : Fin 2) = (i 0).val / 5000 := ht
  obtain ⟨e0, e1, e2, e3, e4, e5, e6⟩ := aligned t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY after the region is the projection of the arrays as the region finds them. -/
theorem final (c : Dev nD) :
    (dat0 V c).arrAt 3 cfg0.N = proj (V c main_arg0) (V c main_arg9) (V c main_arg10) :=
  (dat0 V c).arrAt_eq_of_cover 3 _ (fun t _ => flushed_eq V c t) cover

end Cert.KernelIdeal.ProjRegion

end
-- ==== Proof.Bodies.lean ====
/-
  The combination body and the scoring body of the idealized program, read at one index of their output block.

  Combination (row p, column q): the node's own row against one weight matrix plus its neighbourhood mean's row
  against another, plus the bias; layer 1 takes the maximum with 0 afterwards, layer 2 does not.
  Scoring (row p): the lane sum of the product of the two gathered rows; the column [rows, 1] the body stores is
  the vector of row sums with a unit axis added.
-/
import proofs.«176611_j23252952940854_1_alg».proof.Proof.Dense

noncomputable section

namespace Cert.KernelIdeal.Dense

open Cert.KernelIdeal Cert.KernelIdeal.Gen Idealize.ShloMosaic Idealize.ShloMosaic.ValueIdx

/-! ## The combination body -/

/-- The sum both layers share, before the bias: own rows against `ws` plus mean rows against `wn`. -/
abbrev mix (h a : S5000x128.Idx → EReal) (ws wn : S128x128.Idx → EReal) (b : S128.Idx → EReal) (p : Fin 5000) (q : Fin 128) : EReal :=
  ((∑ k : Fin 128, h (ix2 p k) * ws (ix2 k q)) + (∑ k : Fin 128, a (ix2 p k) * wn (ix2 k q))) + b (ix1 q)

theorem combine_relu_at (h a : Vec Ideal S5000x128 .f32) (ws wn : Vec Ideal S128x128 .f32) (b : Vec Ideal S128 .f32)
    (p : Fin 5000) (q : Fin 128) :
    k1_pay1 (F := Ideal) h a ws wn b (ix2 p q) = max (mix h a ws wn b p q) z32 := by
  unfold k1_pay1
  rw [shapeCast_self h, shapeCast_self a]
  exact congrArg₂ max (congrArg₂ (· + ·) (congrArg₂ (· + ·) (matmul_at _ _ p q) (matmul_at _ _ p q)) (bias_at b p q)) rfl

theorem combine_at (h a : Vec Ideal S5000x128 .f32) (ws wn : Vec Ideal S128x128 .f32) (b : Vec Ideal S128 .f32)
    (p : Fin 5000) (q : Fin 128) :
    k2_pay1 (F := Ideal) h a ws wn b (ix2 p q) = mix h a ws wn b p q := by
  unfold k2_pay1
  rw [shapeCast_self h, shapeCast_self a]
  exact congrArg₂ (· + ·) (congrArg₂ (· + ·) (matmul_at _ _ p q) (matmul_at _ _ p q)) (bias_at b p q)

/-! ## The scoring body -/

/-- A vector [a] cast to the column [a, 1] reads, at (i, u), the vector at i. -/
theorem col_cast {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The lane sum of a block of 10000 rows, at row r. -/
theorem rowsum_at (v : FVec Ideal S10000x128 .f32) (hacc : (0x00000000#32 : BitVec 32) = 0x00000000#32) (r : Fin 10000) :
    multiReduction (F := Ideal) .add [1] S10000 v 0x00000000#32 reduces_S10000x128_S10000 (.inl rfl) hacc (ix1 r)
      = ∑ k : Fin 128, v (ix2 r k) := by
  refine (Ideal.multiReduction_add_single v 0x00000000#32 reduces_S10000x128_S10000 (.inl rfl) hacc (ix1 r)).trans ?_
  refine Finset.sum_congr rfl fun k _ => ?_
  exact congrArg v (funext fun a => by match a with | ⟨0, _⟩ => rfl | ⟨1, _⟩ => rfl)

theorem score_at (s t : Vec Ideal S10000x128 .f32) (r : Fin 10000) (u : Fin 1) :
    k3_pay1 (F := Ideal) s t (ix2 r u) = ∑ k : Fin 128, s (ix2 r k) * t (ix2 r k) := by
  unfold k3_pay1
  rw [shapeCast_self s, shapeCast_self t]
  exact (col_cast _ shapeCasts_S10000_S10000x1 r u).trans (rowsum_at (mulf s t) rfl r)

theorem score_at' (s t : Vec Ideal S10000x128 .f32) (r : Fin 10000) (u : Fin 1) :
    k4_pay1 (F := Ideal) s t (ix2 r u) = ∑ k : Fin 128, s (ix2 r k) * t (ix2 r k) := by
  unfold k4_pay1
  rw [shapeCast_self s, shapeCast_self t]
  exact (col_cast _ shapeCasts_S10000_S10000x1 r u).trans (rowsum_at (mulf s t) rfl r)

end Cert.KernelIdeal.Dense

end
-- ==== Proof.Layer1Region.lean ====
/-
  What the first combination region leaves in its output array, for any contents `V` of the buffers at its entry.

  Twenty grid points; point t loads rows 5000·t … 5000·t + 4999 of the node features and of the neighbourhood means,
  the two weight matrices and the bias whole, and writes the same rows of the output. Row r of the output depends on
  row r of the two row operands alone and the row blocks tile the 100000 rows, so the output array is
  `layer1 h a ws wn b` of the arrays as the region finds them.
-/
import proofs.«176611_j23252952940854_1_alg».proof.Proof.Gen.KernelIdeal.Frame
import proofs.«176611_j23252952940854_1_alg».proof.Proof.Spec
import proofs.«176611_j23252952940854_1_alg».proof.Proof.Bodies

set_option maxRecDepth 16384

noncomputable section

namespace Cert.KernelIdeal.Layer1Region

open Cert.KernelIdeal Cert.KernelIdeal.Gen Cert.KernelIdeal.Dense Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The index maps over the grid: both row operands move with the output rows, the weight matrices and the bias are
    fetched whole at every point, and the output's row block number stays below 20. -/
theorem aligned : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (1 : Fin 2) = 0 ∧ win1_5.index t (0 : Fin 2) ≤ 19 :=
  (by decide +kernel : ∀ t : Fin grid1.N, _)

/-- Every one of the 20 row blocks is some grid point's. -/
theorem onto : ∀ q0 : Fin 20, ∃ t : Fin cfg1.N, win1_5.index t (0 : Fin 2) = q0.val :=
  (by decide +kernel : ∀ q0 : Fin 20, ∃ t : Fin grid1.N, win1_5.index t (0 : Fin 2) = q0.val)

/-- What grid point t writes back is block t of the first layer of the arrays as the region finds them. -/
theorem flushed_eq (c : Dev nD) (t : Fin cfg1.N) :
    (dat1 V c).flushed 5 t
      = ((cfg1.win 5).blk t).view.read (Elt Ideal)
          (layer1 (V c main_v0) (V c main_v19) (V c main_arg11) (V c main_arg12) (V c main_arg13)) := by
  show (cfg1.win 5).cut (grid1.coords t) ((dat1 V c).after 5 t) = _
  rw [after1_5]
  unfold out1_5
  rw [View.canon_unit_zero zeros2]
  simp only [View.ld_unit_zero (S := S5000x128) zeros2, View.ld_unit_zero (S := S128x128) zeros2, View.ld_unit_zero (S := S128) zeros1]
  obtain ⟨e0, e1, e2, e3, e4, e5, e6, e7, e8, e9, e10⟩ := aligned t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = layer1 (V c main_v0) (V c main_v19) (V c main_arg11) (V c main_arg12) (V c main_arg13) (((cfg1.win 5).blk t).view.emb (ix2 p q))
  refine (combine_relu_at _ _ _ _ _ p q).trans ?_
  unfold layer1 mixed
  refine congrArg₂ max (congrArg₂ (· + ·) (congrArg₂ (· + ·)
    (Finset.sum_congr rfl fun k _ => congrArg₂ (· * ·) ?_ ?_) (Finset.sum_congr rfl fun k _ => congrArg₂ (· * ·) ?_ ?_)) ?_) rfl
  · -- row p of the feature block is row 5000·t + p of the node features
    show V c main_v0 (((cfg1.win 0).blk t).view.emb (ix2 p k)) = V c main_v0 _
    refine congrArg (V c main_v0) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · -- the self weight matrix is fetched whole
    show V c main_arg11 (((cfg1.win 2).blk t).view.emb (ix2 k q)) = V c main_arg11 _
    refine congrArg (V c main_arg11) (funext fun a => Fin.ext ?_)
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  · -- row p of the mean block is row 5000·t + p of the neighbourhood means
    show V c main_v19 (((cfg1.win 1).blk t).view.emb (ix2 p k)) = V c main_v19 _
    refine congrArg (V c main_v19) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · -- the neighbour weight matrix is fetched whole
    show V c main_arg12 (((cfg1.win 3).blk t).view.emb (ix2 k q)) = V c main_arg12 _
    refine congrArg (V c main_arg12) (funext fun a => Fin.ext ?_)
    match a with
    | ⟨0, _⟩ => show win1_3.index t (0 : Fin 2) * 128 + 1 * k.val = k.val; omega
    | ⟨1, _⟩ => show win1_3.index t (1 : Fin 2) * 128 + 1 * q.val = win1_5.index t (1 : Fin 2) * 128 + 1 * q.val; omega
  · -- and so is the bias
    show V c main_arg13 (((cfg1.win 4).blk t).view.emb (ix1 q)) = V c main_arg13 _
    refine congrArg (V c main_arg13) (funext fun a => Fin.ext ?_)
    match a with
    | ⟨0, _⟩ => show win1_4.index t (0 : Fin 1) * 128 + 1 * q.val = win1_5.index t (1 : Fin 2) * 128 + 1 * q.val; omega

/-- An index of the output array lies in point t's block iff each coordinate lies in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v20).slice (win1_5.rect t)).set ↔ _
  rw [View.set_slice_whole, Rect.mem_set_unit]
  exact Iff.rfl

/-- The 20 row blocks tile the 100000 rows: row r lies in the block of the point whose block number is r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := onto ⟨(i 0).val / 5000, by omega⟩
  have ht' : win1_5.index t (0 : Fin 2) = (i 0).val / 5000 := ht
  obtain ⟨e0, e1, e2, e3, e4, e5, e6, e7, e8, e9, e10⟩ := aligned t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region is the first layer of the arrays as the region finds them. -/
theorem final (c : Dev nD) :
    (dat1 V c).arrAt 5 cfg1.N
      = layer1 (V c main_v0) (V c main_v19) (V c main_arg11) (V c main_arg12) (V c main_arg13) :=
  (dat1 V c).arrAt_eq_of_cover 5 _ (fun t _ => flushed_eq V c t) cover

end Cert.KernelIdeal.Layer1Region

end
-- ==== Proof.Layer2Region.lean ====
/-
  What the second combination region leaves in its output array, for any contents `V` of the buffers at its entry.

  The same walk as the first combination region over the second layer's operands, without the final maximum: twenty
  grid points, point t loading rows 5000·t … 5000·t + 4999 of the first layer's features and of their neighbourhood
  means together with the whole second-layer weights and bias. The output array is `mixed h a ws wn b` of the arrays
  as the region finds them.
-/
import proofs.«176611_j23252952940854_1_alg».proof.Proof.Gen.KernelIdeal.Frame
import proofs.«176611_j23252952940854_1_alg».proof.Proof.Spec
import proofs.«176611_j23252952940854_1_alg».proof.Proof.Bodies

set_option maxRecDepth 16384

noncomputable section

namespace Cert.KernelIdeal.Layer2Region

open Cert.KernelIdeal Cert.KernelIdeal.Gen Cert.KernelIdeal.Dense Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The index maps over the grid: both row operands move with the output rows, the weight matrices and the bias are
    fetched whole at every point, and the output's row block number stays below 20. -/
theorem aligned : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (1 : Fin 2) = 0 ∧ win2_5.index t (0 : Fin 2) ≤ 19 :=
  (by decide +kernel : ∀ t : Fin grid2.N, _)

/-- Every one of the 20 row blocks is some grid point's. -/
theorem onto : ∀ q0 : Fin 20, ∃ t : Fin cfg2.N, win2_5.index t (0 : Fin 2) = q0.val :=
  (by decide +kernel : ∀ q0 : Fin 20, ∃ t : Fin grid2.N, win2_5.index t (0 : Fin 2) = q0.val)

/-- What grid point t writes back is block t of the mixed sum of the arrays as the region finds them. -/
theorem flushed_eq (c : Dev nD) (t : Fin cfg2.N) :
    (dat2 V c).flushed 5 t
      = ((cfg2.win 5).blk t).view.read (Elt Ideal)
          (mixed (V c main_v20) (V c main_v39) (V c main_arg14) (V c main_arg15) (V c main_arg16)) := by
  show (cfg2.win 5).cut (grid2.coords t) ((dat2 V c).after 5 t) = _
  rw [after2_5]
  unfold out2_5
  rw [View.canon_unit_zero zeros2]
  simp only [View.ld_unit_zero (S := S5000x128) zeros2, View.ld_unit_zero (S := S128x128) zeros2, View.ld_unit_zero (S := S128) zeros1]
  obtain ⟨e0, e1, e2, e3, e4, e5, e6, e7, e8, e9, e10⟩ := aligned t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = mixed (V c main_v20) (V c main_v39) (V c main_arg14) (V c main_arg15) (V c main_arg16) (((cfg2.win 5).blk t).view.emb (ix2 p q))
  refine (combine_at _ _ _ _ _ p q).trans ?_
  unfold mixed
  refine congrArg₂ (· + ·) (congrArg₂ (· + ·)
    (Finset.sum_congr rfl fun k _ => congrArg₂ (· * ·) ?_ ?_) (Finset.sum_congr rfl fun k _ => congrArg₂ (· * ·) ?_ ?_)) ?_
  · -- row p of the feature block is row 5000·t + p of the node features
    show V c main_v20 (((cfg2.win 0).blk t).view.emb (ix2 p k)) = V c main_v20 _
    refine congrArg (V c main_v20) (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  · -- the self weight matrix is fetched whole
    show V c main_arg14 (((cfg2.win 2).blk t).view.emb (ix2 k q)) = V c main_arg14 _
    refine congrArg (V c main_arg14) (funext fun a => Fin.ext ?_)
    match a with
    | ⟨0, _⟩ => show win2_2.index t (0 : Fin 2) * 128 + 1 * k.val = k.val; omega
    | ⟨1, _⟩ => show win2_2.index t (1 : Fin 2) * 128 + 1 * q.val = win2_5.index t (1 : Fin 2) * 128 + 1 * q.val; omega
  · -- row p of the mean block is row 5000·t + p of the neighbourhood means
    show V c main_v39 (((cfg2.win 1).blk t).view.emb (ix2 p k)) = V c main_v39 _
    refine congrArg (V c main_v39) (funext fun a => Fin.ext ?_)
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  · -- the neighbour weight matrix is fetched whole
    show V c main_arg15 (((cfg2.win 3).blk t).view.emb (ix2 k q)) = V c main_arg15 _
    refine congrArg (V c main_arg15) (funext fun a => Fin.ext ?_)
    match a with
    | ⟨0, _⟩ => show win2_3.index t (0 : Fin 2) * 128 + 1 * k.val = k.val; omega
    | ⟨1, _⟩ => show win2_3.index t (1 : Fin 2) * 128 + 1 * q.val = win2_5.index t (1 : Fin 2) * 128 + 1 * q.val; omega
  · -- and so is the bias
    show V c main_arg16 (((cfg2.win 4).blk t).view.emb (ix1 q)) = V c main_arg16 _
    refine congrArg (V c main_arg16) (funext fun a => Fin.ext ?_)
    match a with
    | ⟨0, _⟩ => show win2_4.index t (0 : Fin 1) * 128 + 1 * q.val = win2_5.index t (1 : Fin 2) * 128 + 1 * q.val; omega

/-- An index of the output array lies in point t's block iff each coordinate lies in the block's range on its axis. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v40).slice (win2_5.rect t)).set ↔ _
  rw [View.set_slice_whole, Rect.mem_set_unit]
  exact Iff.rfl

/-- The 20 row blocks tile the 100000 rows: row r lies in the block of the point whose block number is r / 5000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := onto ⟨(i 0).val / 5000, by omega⟩
  have ht' : win2_5.index t (0 : Fin 2) = (i 0).val / 5000 := ht
  obtain ⟨e0, e1, e2, e3, e4, e5, e6, e7, e8, e9, e10⟩ := aligned t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE OUTPUT ARRAY after the region is the mixed sum of the arrays as the region finds them. -/
theorem final (c : Dev nD) :
    (dat2 V c).arrAt 5 cfg2.N
      = mixed (V c main_v20) (V c main_v39) (V c main_arg14) (V c main_arg15) (V c main_arg16) :=
  (dat2 V c).arrAt_eq_of_cover 5 _ (fun t _ => flushed_eq V c t) cover

end Cert.KernelIdeal.Layer2Region

end
-- ==== Proof.PosScoreRegion.lean ====
/-
  What the first scoring region leaves in its output array, for any contents `V` of the buffers at its entry.

  Ten grid points; point t loads rows 10000·t … 10000·t + 9999 of the two gathered feature arrays and writes the
  same rows of the output column: row e of the output is the dot product of row e of the one with row e of the
  other. The ten row blocks tile the 100000 rows, so the output column is `rowDots 100000 s t` of the arrays as the
  region finds them.
-/
import proofs.«176611_j23252952940854_1_alg».proof.Proof.Gen.KernelIdeal.Frame
import proofs.«176611_j23252952940854_1_alg».proof.Proof.Spec
import proofs.«176611_j23252952940854_1_alg».proof.Proof.Bodies

set_option maxRecDepth 16384

noncomputable section

namespace Cert.KernelIdeal.PosScoreRegion

open Cert.KernelIdeal Cert.KernelIdeal.Gen Cert.KernelIdeal.Dense Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The index maps over the grid: both operands' rows move with the output rows, and the output's row block number
    stays below 10. -/
theorem aligned : ∀ t : Fin cfg3.N,
    win3_0.index t (0 : Fin 2) = win3_2.index t (0 : Fin 2) ∧ win3_0.index t (1 : Fin 2) = 0
    ∧ win3_1.index t (0 : Fin 2) = win3_2.index t (0 : Fin 2) ∧ win3_1.index t (1 : Fin 2) = 0
    ∧ win3_2.index t (1 : Fin 2) = 0 ∧ win3_2.index t (0 : Fin 2) ≤ 9 :=
  (by decide +kernel : ∀ t : Fin grid3.N, _)

/-- Every one of the 10 row blocks is some grid point's. -/
theorem onto : ∀ q0 : Fin 10, ∃ t : Fin cfg3.N, win3_2.index t (0 : Fin 2) = q0.val :=
  (by decide +kernel : ∀ q0 : Fin 10, ∃ t : Fin grid3.N, win3_2.index t (0 : Fin 2) = q0.val)

/-- What grid point t writes back is block t of the row-wise dot products of the arrays as the region finds them. -/
theorem flushed_eq (c : Dev nD) (t : Fin cfg3.N) :
    (dat3 V c).flushed 2 t
      = ((cfg3.win 2).blk t).view.read (Elt Ideal) (rowDots 100000 (V c main_v47) (V c main_v54)) := by
  show (cfg3.win 2).cut (grid3.coords t) ((dat3 V c).after 2 t) = _
  rw [after3_2]
  unfold out3_2
  rw [View.canon_unit_zero zeros2]
  simp only [View.ld_unit_zero (S := S10000x128) zeros2]
  obtain ⟨e0, e1, e2, e3, e4, e5⟩ := aligned t
  funext j
  obtain ⟨p, u, rfl⟩ : ∃ (p : Fin 10000) (u : Fin 1), j = ix2 p u := ⟨j 0, j 1, eq_ix2 j⟩
  show k3_pay1 (F := Ideal) (iblk3 V c 0 t) (iblk3 V c 1 t) (ix2 p u)
    = rowDots 100000 (V c main_v47) (V c main_v54) (((cfg3.win 2).blk t).view.emb (ix2 p u))
  refine (score_at _ _ p u).trans ?_
  unfold rowDots
  refine Finset.sum_congr rfl fun k _ => congrArg₂ (· * ·) ?_ ?_
  · -- row p of the first block is row 10000·t + p of the first gathered array
    show V c main_v47 (((cfg3.win 0).blk t).view.emb (ix2 p k)) = V c main_v47 _
    refine congrArg (V c main_v47) (funext fun a => Fin.ext ?_)
    match a with
    | ⟨0, _⟩ => show win3_0.index t (0 : Fin 2) * 10000 + 1 * p.val = win3_2.index t (0 : Fin 2) * 10000 + 1 * p.val; omega
    | ⟨1, _⟩ => show win3_0.index t (1 : Fin 2) * 128 + 1 * k.val = k.val; omega
  · -- row p of the second block is row 10000·t + p of the second gathered array
    show V c main_v54 (((cfg3.win 1).blk t).view.emb (ix2 p k)) = V c main_v54 _
    refine congrArg (V c main_v54) (funext fun a => Fin.ext ?_)
    match a with
    | ⟨0, _⟩ => show win3_1.index t (0 : Fin 2) * 10000 + 1 * p.val = win3_2.index t (0 : Fin 2) * 10000 + 1 * p.val; omega
    | ⟨1, _⟩ => show win3_1.index t (1 : Fin 2) * 128 + 1 * k.val = k.val; omega

/-- An index of the output column lies in point t's block iff each coordinate lies in the block's range on its axis. -/
theorem mem_blk (t : Fin cfg3.N) (i : S100000x1.Idx) :
    i ∈ ((cfg3.win 2).blk t).view.set ↔ ∀ a : Fin 2, win3_2.index t a * S10000x1.size a ≤ (i a).val
      ∧ (i a).val < win3_2.index t a * S10000x1.size a + S10000x1.size a := by
  show i ∈ ((View.whole main_v55).slice (win3_2.rect t)).set ↔ _
  rw [View.set_slice_whole, Rect.mem_set_unit]
  exact Iff.rfl

/-- The 10 row blocks tile the 100000 rows: row e lies in the block of the point whose block number is e / 10000. -/
theorem cover (i : S100000x1.Idx) :
    ∃ t : Fin cfg3.N, (cfg3.win 2).flush t = true ∧ i ∈ ((cfg3.win 2).blk t).view.set := by
  have hi0 : (i 0).val < 100000 := (i 0).isLt
  have hi1 : (i 1).val < 1 := (i 1).isLt
  obtain ⟨t, ht⟩ := onto ⟨(i 0).val / 10000, by omega⟩
  have ht' : win3_2.index t (0 : Fin 2) = (i 0).val / 10000 := ht
  obtain ⟨e0, e1, e2, e3, e4, e5⟩ := aligned t
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 1 ≤ (i 1).val ∧ (i 1).val < win3_2.index t (1 : Fin 2) * 1 + 1; omega

/-- THE OUTPUT COLUMN after the region is the row-wise dot products of the arrays as the region finds them. -/
theorem final (c : Dev nD) :
    (dat3 V c).arrAt 2 cfg3.N = rowDots 100000 (V c main_v47) (V c main_v54) :=
  (dat3 V c).arrAt_eq_of_cover 2 _ (fun t _ => flushed_eq V c t) cover

end Cert.KernelIdeal.PosScoreRegion

end
-- ==== Proof.NegScoreRegion.lean ====
/-
  What the second scoring region leaves in its output array, for any contents `V` of the buffers at its entry.

  Fifty grid points; point t loads rows 10000·t … 10000·t + 9999 of the two gathered feature arrays of the negative
  pairs and writes the same rows of the output column. The fifty row blocks tile the 500000 rows, so the output
  column is `rowDots 500000 s t` of the arrays as the region finds them.
-/
import proofs.«176611_j23252952940854_1_alg».proof.Proof.Gen.KernelIdeal.Frame
import proofs.«176611_j23252952940854_1_alg».proof.Proof.Spec
import proofs.«176611_j23252952940854_1_alg».proof.Proof.Bodies

set_option maxRecDepth 16384

noncomputable section

namespace Cert.KernelIdeal.NegScoreRegion

open Cert.KernelIdeal Cert.KernelIdeal.Gen Cert.KernelIdeal.Dense Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The index maps over the grid: both operands' rows move with the output rows, and the output's row block number
    stays below 50. -/
theorem aligned : ∀ t : Fin cfg4.N,
    win4_0.index t (0 : Fin 2) = win4_2.index t (0 : Fin 2) ∧ win4_0.index t (1 : Fin 2) = 0
    ∧ win4_1.index t (0 : Fin 2) = win4_2.index t (0 : Fin 2) ∧ win4_1.index t (1 : Fin 2) = 0
    ∧ win4_2.index t (1 : Fin 2) = 0 ∧ win4_2.index t (0 : Fin 2) ≤ 49 :=
  (by decide +kernel : ∀ t : Fin grid4.N, _)

/-- Every one of the 50 row blocks is some grid point's. -/
theorem onto : ∀ q0 : Fin 50, ∃ t : Fin cfg4.N, win4_2.index t (0 : Fin 2) = q0.val :=
  (by decide +kernel : ∀ q0 : Fin 50, ∃ t : Fin grid4.N, win4_2.index t (0 : Fin 2) = q0.val)

/-- What grid point t writes back is block t of the row-wise dot products of the arrays as the region finds them. -/
theorem flushed_eq (c : Dev nD) (t : Fin cfg4.N) :
    (dat4 V c).flushed 2 t
      = ((cfg4.win 2).blk t).view.read (Elt Ideal) (rowDots 500000 (V c main_v63) (V c main_v70)) := by
  show (cfg4.win 2).cut (grid4.coords t) ((dat4 V c).after 2 t) = _
  rw [after4_2]
  unfold out4_2
  rw [View.canon_unit_zero zeros2]
  simp only [View.ld_unit_zero (S := S10000x128) zeros2]
  obtain ⟨e0, e1, e2, e3, e4, e5⟩ := aligned t
  funext j
  obtain ⟨p, u, rfl⟩ : ∃ (p : Fin 10000) (u : Fin 1), j = ix2 p u := ⟨j 0, j 1, eq_ix2 j⟩
  show k4_pay1 (F := Ideal) (iblk4 V c 0 t) (iblk4 V c 1 t) (ix2 p u)
    = rowDots 500000 (V c main_v63) (V c main_v70) (((cfg4.win 2).blk t).view.emb (ix2 p u))
  refine (score_at' _ _ p u).trans ?_
  unfold rowDots
  refine Finset.sum_congr rfl fun k _ => congrArg₂ (· * ·) ?_ ?_
  · -- row p of the first block is row 10000·t + p of the first gathered array
    show V c main_v63 (((cfg4.win 0).blk t).view.emb (ix2 p k)) = V c main_v63 _
    refine congrArg (V c main_v63) (funext fun a => Fin.ext ?_)
    match a with
    | ⟨0, _⟩ => show win4_0.index t (0 : Fin 2) * 10000 + 1 * p.val = win4_2.index t (0 : Fin 2) * 10000 + 1 * p.val; omega
    | ⟨1, _⟩ => show win4_0.index t (1 : Fin 2) * 128 + 1 * k.val = k.val; omega
  · -- row p of the second block is row 10000·t + p of the second gathered array
    show V c main_v70 (((cfg4.win 1).blk t).view.emb (ix2 p k)) = V c main_v70 _
    refine congrArg (V c main_v70) (funext fun a => Fin.ext ?_)
    match a with
    | ⟨0, _⟩ => show win4_1.index t (0 : Fin 2) * 10000 + 1 * p.val = win4_2.index t (0 : Fin 2) * 10000 + 1 * p.val; omega
    | ⟨1, _⟩ => show win4_1.index t (1 : Fin 2) * 128 + 1 * k.val = k.val; omega

/-- An index of the output column lies in point t's block iff each coordinate lies in the block's range on its axis. -/
theorem mem_blk (t : Fin cfg4.N) (i : S500000x1.Idx) :
    i ∈ ((cfg4.win 2).blk t).view.set ↔ ∀ a : Fin 2, win4_2.index t a * S10000x1.size a ≤ (i a).val
      ∧ (i a).val < win4_2.index t a * S10000x1.size a + S10000x1.size a := by
  show i ∈ ((View.whole main_v71).slice (win4_2.rect t)).set ↔ _
  rw [View.set_slice_whole, Rect.mem_set_unit]
  exact Iff.rfl

/-- The 50 row blocks tile the 500000 rows: row e lies in the block of the point whose block number is e / 10000. -/
theorem cover (i : S500000x1.Idx) :
    ∃ t : Fin cfg4.N, (cfg4.win 2).flush t = true ∧ i ∈ ((cfg4.win 2).blk t).view.set := by
  have hi0 : (i 0).val < 500000 := (i 0).isLt
  have hi1 : (i 1).val < 1 := (i 1).isLt
  obtain ⟨t, ht⟩ := onto ⟨(i 0).val / 10000, by omega⟩
  have ht' : win4_2.index t (0 : Fin 2) = (i 0).val / 10000 := ht
  obtain ⟨e0, e1, e2, e3, e4, e5⟩ := aligned t
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 1 ≤ (i 1).val ∧ (i 1).val < win4_2.index t (1 : Fin 2) * 1 + 1; omega

/-- THE OUTPUT COLUMN after the region is the row-wise dot products of the arrays as the region finds them. -/
theorem final (c : Dev nD) :
    (dat4 V c).arrAt 2 cfg4.N = rowDots 500000 (V c main_v63) (V c main_v70) :=
  (dat4 V c).arrAt_eq_of_cover 2 _ (fun t _ => flushed_eq V c t) cover

end Cert.KernelIdeal.NegScoreRegion

end
-- ==== Proof.Glue.lean ====
/-
  The data movement both programs share, as functions that are never opened.

  Between the dense stages both programs run the same host operations on the same index arrays:

    meanOf h src dst   the mean over a node's incoming edges of the source rows of h: rows h[src] are summed into
                       their destination nodes, each node's count of incoming edges is summed beside them, and the
                       sum is divided by max(count, 1). A negative index is first moved up by 100000.
    rows100k h idx     the 100000 rows h[idx] (the positive pairs' endpoints), rows500k the 500000 rows (negative).

  A certificate about the dense stages needs only that the two programs apply these same functions to equal
  arguments; what a gather or a scatter-add does with an index out of range never has to be said.
-/
import proofs.«176611_j23252952940854_1_alg».proof.Proof.Gen.KernelIdeal
import Idealize.ShloMosaic.PureOps.Ideal

noncomputable section

namespace Cert.KernelIdeal.Glue

open Cert.KernelIdeal Cert.KernelIdeal.Gen Idealize.ShloMosaic

/-- A negative index moved up by 100000, as a column of 1600000 start indices. -/
def wrap16 (idx : (⟨S1600000, .i32⟩ : BufTy).Contents (Elt Ideal)) : (⟨S1600000x1, .i32⟩ : BufTy).Contents (Elt Ideal) :=
  broadcastInDim S1600000x1 ![0] bcast_S1600000_S1600000x1_0
    (select (cmpi CmpIPredicate.slt idx (broadcastInDim S1600000 ![] bcast_S_S1600000 (constantI S_ 32 0#32)))
      (addi idx (broadcastInDim S1600000 ![] bcast_S_S1600000 (constantI S_ 32 100000#32)))
      idx)

/-- The mean of the source rows over each node's incoming edges. -/
def meanOf (h : (⟨S100000x128, .f32⟩ : BufTy).Contents (Elt Ideal)) (src dst : (⟨S1600000, .i32⟩ : BufTy).Contents (Elt Ideal)) :
    (⟨S100000x128, .f32⟩ : BufTy).Contents (Elt Ideal) :=
  Host.divf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h (wrap16 src)))
    (broadcastInDim S100000x128 ![0, 1] bcast_S100000x1_S100000x128_0_1
      (broadcastInDim S100000x1 ![0] bcast_S100000_S100000x1_0
        (maximumf
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

/-- The 100000 rows of h at the given node indices. -/
def rows100k (h : (⟨S100000x128, .f32⟩ : BufTy).Contents (Elt Ideal)) (idx : (⟨S100000, .i32⟩ : BufTy).Contents (Elt Ideal)) :
    (⟨S100000x128, .f32⟩ : BufTy).Contents (Elt Ideal) :=
  Host.gather gather_S100000x128_S100000x1_S100000x128_1_0_n_n_0_1_1128 h
    (broadcastInDim S100000x1 ![0] bcast_S100000_S100000x1_0
      (select (cmpi CmpIPredicate.slt idx (broadcastInDim S100000 ![] bcast_S_S100000 (constantI S_ 32 0#32)))
        (addi idx (broadcastInDim S100000 ![] bcast_S_S100000 (constantI S_ 32 100000#32)))
        idx))

/-- The 500000 rows of h at the given node indices. -/
def rows500k (h : (⟨S100000x128, .f32⟩ : BufTy).Contents (Elt Ideal)) (idx : (⟨S500000, .i32⟩ : BufTy).Contents (Elt Ideal)) :
    (⟨S500000x128, .f32⟩ : BufTy).Contents (Elt Ideal) :=
  Host.gather gather_S100000x128_S500000x1_S500000x128_1_0_n_n_0_1_1128 h
    (broadcastInDim S500000x1 ![0] bcast_S500000_S500000x1_0
      (select (cmpi CmpIPredicate.slt idx (broadcastInDim S500000 ![] bcast_S_S500000 (constantI S_ 32 0#32)))
        (addi idx (broadcastInDim S500000 ![] bcast_S_S500000 (constantI S_ 32 100000#32)))
        idx))

end Cert.KernelIdeal.Glue

end
-- ==== Proof.Network.lean ====
/-
  The whole computation as named stages, each a function of the argument arrays.

    feat0  = proj feat w_proj b_proj                                   the projected node features
    mean1  = meanOf feat0 edge0_src edge0_dst                          their means over incoming edges
    feat1  = layer1 feat0 mean1 w_self1 w_neigh1 b1                    the first layer
    mean2  = meanOf feat1 edge1_src edge1_dst
    feat2  = mixed feat1 mean2 w_self2 w_neigh2 b2                     the second layer
    posScore = the row-wise dot products of feat2[pos_src] and feat2[pos_dst], as a vector of 100000
    negScore = the same over the 500000 negative pairs

  The idealized kernel program and the idealized reference both compute exactly these two vectors.
-/
import proofs.«176611_j23252952940854_1_alg».proof.Proof.Spec
import proofs.«176611_j23252952940854_1_alg».proof.Proof.Glue

noncomputable section

namespace Cert.KernelIdeal.Net

open Cert.KernelIdeal Cert.KernelIdeal.Dense Cert.KernelIdeal.Spec Cert.KernelIdeal.Glue
open Idealize.ShloMosaic Idealize.ShloMosaic.ValueIdx

/-- A column [n, 1] of row-wise dot products read as the vector [n]. -/
def flatDots (n : ℕ) (s t : (⟨2, ![n, 128]⟩ : Shape).Idx → EReal) : (⟨1, ![n]⟩ : Shape).Idx → EReal :=
  fun i => ∑ k : Fin 128, s (ix2 (⟨(i 0).val, (i 0).isLt⟩ : Fin n) k) * t (ix2 (⟨(i 0).val, (i 0).isLt⟩ : Fin n) k)

abbrev Nodes := (⟨S100000x128, .f32⟩ : BufTy).Contents (Elt Ideal)
abbrev Edges := (⟨S1600000, .i32⟩ : BufTy).Contents (Elt Ideal)
abbrev Pos := (⟨S100000, .i32⟩ : BufTy).Contents (Elt Ideal)
abbrev Neg := (⟨S500000, .i32⟩ : BufTy).Contents (Elt Ideal)
abbrev Mat := (⟨S128x128, .f32⟩ : BufTy).Contents (Elt Ideal)
abbrev Bias := (⟨S128, .f32⟩ : BufTy).Contents (Elt Ideal)

variable (x0 : Nodes) (x1 x2 x3 x4 : Edges) (x5 x6 : Pos) (x7 x8 : Neg)
  (x9 : Mat) (x10 : Bias) (x11 x12 : Mat) (x13 : Bias) (x14 x15 : Mat) (x16 : Bias)

def feat0 : Nodes := proj x0 x9 x10
def mean1 : Nodes := meanOf (feat0 x0 x9 x10) x1 x2
def feat1 : Nodes := layer1 (feat0 x0 x9 x10) (mean1 x0 x1 x2 x9 x10) x11 x12 x13
def mean2 : Nodes := meanOf (feat1 x0 x1 x2 x9 x10 x11 x12 x13) x3 x4
def feat2 : Nodes :=
  mixed (feat1 x0 x1 x2 x9 x10 x11 x12 x13) (mean2 x0 x1 x2 x3 x4 x9 x10 x11 x12 x13) x14 x15 x16

def posScore : (⟨S100000, .f32⟩ : BufTy).Contents (Elt Ideal) :=
  flatDots 100000 (rows100k (feat2 x0 x1 x2 x3 x4 x9 x10 x11 x12 x13 x14 x15 x16) x5)
    (rows100k (feat2 x0 x1 x2 x3 x4 x9 x10 x11 x12 x13 x14 x15 x16) x6)
def negScore : (⟨S500000, .f32⟩ : BufTy).Contents (Elt Ideal) :=
  flatDots 500000 (rows500k (feat2 x0 x1 x2 x3 x4 x9 x10 x11 x12 x13 x14 x15 x16) x7)
    (rows500k (feat2 x0 x1 x2 x3 x4 x9 x10 x11 x12 x13 x14 x15 x16) x8)

end Cert.KernelIdeal.Net

end
-- ==== Proof.Fold.lean ====
/-
  The contents of the kernel program's buffers at each boundary between its segments, as the named stages.

  The buffers' contents are folded through ten segments: a grid region replaces its output array by what the region
  leaves there and keeps every other buffer, a stretch of host operations replaces the buffers it writes by the
  operations' results and keeps the rest. Walking that fold from the launch memory:

    after region 0   the projection's output array holds feat0 of the launch arguments
    after stretch 1  the mean buffer holds mean1 (the shared gather / scatter-add / divide chain applied to feat0)
    after region 1   feat1;   after stretch 2   mean2;   after region 2   feat2
    after stretch 3  the two gathered arrays of the positive pairs, rows of feat2
    after region 3   the column of their row-wise dot products;  after stretch 4  that column as a vector: posScore
    after region 4 and the last reshape  negScore, while the positive scores' buffer is not written again.

  An argument array is never written, so at every boundary it still holds its launch contents.
-/
import proofs.«176611_j23252952940854_1_alg».proof.Proof.Gen.KernelIdeal.Frame
import Idealize.ShloMosaic.Lib.StableHlo.Run
import proofs.«176611_j23252952940854_1_alg».proof.Proof.Keeps
import proofs.«176611_j23252952940854_1_alg».proof.Proof.ArgReads
import proofs.«176611_j23252952940854_1_alg».proof.Proof.ProjRegion
import proofs.«176611_j23252952940854_1_alg».proof.Proof.Layer1Region
import proofs.«176611_j23252952940854_1_alg».proof.Proof.Layer2Region
import proofs.«176611_j23252952940854_1_alg».proof.Proof.PosScoreRegion
import proofs.«176611_j23252952940854_1_alg».proof.Proof.NegScoreRegion
import proofs.«176611_j23252952940854_1_alg».proof.Proof.Network

set_option maxRecDepth 16384

noncomputable section

namespace Cert.KernelIdeal.Fold

open Cert.KernelIdeal Cert.KernelIdeal.Gen Cert.KernelIdeal.Dense Cert.KernelIdeal.Spec Cert.KernelIdeal.Glue Cert.KernelIdeal.Net
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The stages -/

/-- After region 0 the projection's output array holds the projected features. -/
theorem feat0_at1 : W1 m ρ c (Proc.devRef .tc main_v0) = feat0 (m ((c : Thread nD τ).loc main_arg0)) (m ((c : Thread nD τ).loc main_arg9)) (m ((c : Thread nD τ).loc main_arg10)) :=
  (W1_arr m ρ c 3).trans (ProjRegion.final (V0 m ρ) c)

theorem feat0_at2 : W2 m ρ c (Proc.devRef .tc main_v0) = feat0 (m ((c : Thread nD τ).loc main_arg0)) (m ((c : Thread nD τ).loc main_arg9)) (m ((c : Thread nD τ).loc main_arg10)) :=
  (by host_keeps hostOps1 main_v0 : W2 m ρ c (Proc.devRef .tc main_v0) = W1 m ρ c (Proc.devRef .tc main_v0)).trans (feat0_at1 m ρ c)

set_option maxHeartbeats 8000000 in
/-- Stretch 1 applies the shared mean chain to region 0's output and the first edge list. -/
theorem mean1_at2 : W2 m ρ c (Proc.devRef .tc main_v19) = mean1 (m ((c : Thread nD τ).loc main_arg0)) (m ((c : Thread nD τ).loc main_arg1)) (m ((c : Thread nD τ).loc main_arg2)) (m ((c : Thread nD τ).loc main_arg9)) (m ((c : Thread nD τ).loc main_arg10)) := by
  have raw : W2 m ρ c (Proc.devRef .tc main_v19)
      = meanOf (W1 m ρ c (Proc.devRef .tc main_v0)) (W1 m ρ c (Proc.devRef .tc main_arg1)) (W1 m ρ c (Proc.devRef .tc main_arg2)) := by
    show StableHlo.after hostOps1 (W1 m ρ c) (Proc.devRef .tc main_v19) = _
    dsimp only [hostOps1]
    after_results_simp <;> rfl
  rw [raw, feat0_at1, arg1_at1, arg2_at1]; rfl

/-- After region 1 its output array holds the first layer. -/
theorem feat1_at3 : W3 m ρ c (Proc.devRef .tc main_v20) = feat1 (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W3_arr m ρ c 5).trans ((Layer1Region.final (V2 m ρ) c).trans ?_)
  show layer1 (W2 m ρ c (Proc.devRef .tc main_v0)) (W2 m ρ c (Proc.devRef .tc main_v19)) (W2 m ρ c (Proc.devRef .tc main_arg11))
    (W2 m ρ c (Proc.devRef .tc main_arg12)) (W2 m ρ c (Proc.devRef .tc main_arg13)) = _
  rw [feat0_at2, mean1_at2, arg11_at2, arg12_at2, arg13_at2]; rfl

theorem feat1_at4 : W4 m ρ c (Proc.devRef .tc main_v20) = feat1 (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11)) (m ((c : Thread nD τ).loc main_arg12)) (m ((c : Thread nD τ).loc main_arg13)) :=
  (by host_keeps hostOps2 main_v20 : W4 m ρ c (Proc.devRef .tc main_v20) = W3 m ρ c (Proc.devRef .tc main_v20)).trans (feat1_at3 m ρ c)

set_option maxHeartbeats 8000000 in
/-- Stretch 2 applies the same mean chain to the first layer and the second edge list. -/
theorem mean2_at4 : W4 m ρ c (Proc.devRef .tc main_v39) = mean2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) := by
  have raw : W4 m ρ c (Proc.devRef .tc main_v39)
      = meanOf (W3 m ρ c (Proc.devRef .tc main_v20)) (W3 m ρ c (Proc.devRef .tc main_arg3)) (W3 m ρ c (Proc.devRef .tc main_arg4)) := by
    show StableHlo.after hostOps2 (W3 m ρ c) (Proc.devRef .tc main_v39) = _
    dsimp only [hostOps2]
    after_results_simp <;> rfl
  rw [raw, feat1_at3, arg3_at3, arg4_at3]; rfl

/-- After region 2 its output array holds the second layer. -/
theorem feat2_at5 : W5 m ρ c (Proc.devRef .tc main_v40) = feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W5_arr m ρ c 5).trans ((Layer2Region.final (V4 m ρ) c).trans ?_)
  show mixed (W4 m ρ c (Proc.devRef .tc main_v20)) (W4 m ρ c (Proc.devRef .tc main_v39)) (W4 m ρ c (Proc.devRef .tc main_arg14))
    (W4 m ρ c (Proc.devRef .tc main_arg15)) (W4 m ρ c (Proc.devRef .tc main_arg16)) = _
  rw [feat1_at4, mean2_at4, arg14_at4, arg15_at4, arg16_at4]; rfl

/-! ## The scores -/

theorem feat2_at6 : W6 m ρ c (Proc.devRef .tc main_v40) = feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (by host_keeps hostOps3 main_v40 : W6 m ρ c (Proc.devRef .tc main_v40) = W5 m ρ c (Proc.devRef .tc main_v40)).trans (feat2_at5 m ρ c)

theorem feat2_at7 : W7 m ρ c (Proc.devRef .tc main_v40) = feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (W7_of_ne m ρ c main_v40 (by decide)).trans (feat2_at6 m ρ c)

set_option maxHeartbeats 8000000 in
/-- Stretch 3 gathers the second layer's rows at the positive pairs' sources … -/
theorem posSrc_at6 : W6 m ρ c (Proc.devRef .tc main_v47) = rows100k (feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg5)) := by
  have raw : W6 m ρ c (Proc.devRef .tc main_v47)
      = rows100k (W5 m ρ c (Proc.devRef .tc main_v40)) (W5 m ρ c (Proc.devRef .tc main_arg5)) := by
    show StableHlo.after hostOps3 (W5 m ρ c) (Proc.devRef .tc main_v47) = _
    dsimp only [hostOps3]
    after_results_simp <;> rfl
  rw [raw, feat2_at5, arg5_at5]

set_option maxHeartbeats 8000000 in
/-- … and at their destinations. -/
theorem posDst_at6 : W6 m ρ c (Proc.devRef .tc main_v54) = rows100k (feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg6)) := by
  have raw : W6 m ρ c (Proc.devRef .tc main_v54)
      = rows100k (W5 m ρ c (Proc.devRef .tc main_v40)) (W5 m ρ c (Proc.devRef .tc main_arg6)) := by
    show StableHlo.after hostOps3 (W5 m ρ c) (Proc.devRef .tc main_v54) = _
    dsimp only [hostOps3]
    after_results_simp <;> rfl
  rw [raw, feat2_at5, arg6_at5]

/-- After region 3 its output column holds the row-wise dot products of the two gathered arrays. -/
theorem posCol_at7 : W7 m ρ c (Proc.devRef .tc main_v55)
    = rowDots 100000 (rows100k (feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg5))) (rows100k (feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg6))) := by
  refine (W7_arr m ρ c 2).trans ((PosScoreRegion.final (V6 m ρ) c).trans ?_)
  show rowDots 100000 (W6 m ρ c (Proc.devRef .tc main_v47)) (W6 m ρ c (Proc.devRef .tc main_v54)) = _
  rw [posSrc_at6, posDst_at6]

/-- A column [100000, 1] of row-wise dot products cast to the vector [100000]. -/
theorem flat100k (s t : (⟨2, ![100000, 128]⟩ : Shape).Idx → EReal) :
    (fun i => shapeCast S100000 (rowDots 100000 s t) shapeCasts_S100000x1_S100000 i) = flatDots 100000 s t := by
  funext i
  obtain ⟨r, rfl⟩ : ∃ r : Fin 100000, i = ix1 r := ⟨i 0, eq_ix1 i⟩
  refine (shapeCast_apply _ shapeCasts_S100000x1_S100000 (ix1 r) (ix2 r (0 : Fin 1)) ?_).trans rfl
  rw [Shape.rowMajor_val_two, Shape.rowMajor_val_one]
  show r.val * 1 + 0 = r.val
  omega

/-- A column [500000, 1] of row-wise dot products cast to the vector [500000]. -/
theorem flat500k (s t : (⟨2, ![500000, 128]⟩ : Shape).Idx → EReal) :
    (fun i => shapeCast S500000 (rowDots 500000 s t) shapeCasts_S500000x1_S500000 i) = flatDots 500000 s t := by
  funext i
  obtain ⟨r, rfl⟩ : ∃ r : Fin 500000, i = ix1 r := ⟨i 0, eq_ix1 i⟩
  refine (shapeCast_apply _ shapeCasts_S500000x1_S500000 (ix1 r) (ix2 r (0 : Fin 1)) ?_).trans rfl
  rw [Shape.rowMajor_val_two, Shape.rowMajor_val_one]
  show r.val * 1 + 0 = r.val
  omega

set_option maxHeartbeats 8000000 in
/-- Stretch 4 casts that column to a vector: the positive scores. -/
theorem pos_at8 : W8 m ρ c (Proc.devRef .tc main_v56) = posScore (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have raw : W8 m ρ c (Proc.devRef .tc main_v56)
      = (fun i => shapeCast S100000 (W7 m ρ c (Proc.devRef .tc main_v55)) shapeCasts_S100000x1_S100000 i) := by
    show StableHlo.after hostOps4 (W7 m ρ c) (Proc.devRef .tc main_v56) = _
    dsimp only [hostOps4]
    after_results_simp <;> rfl
  rw [raw, posCol_at7]
  exact flat100k _ _

set_option maxHeartbeats 8000000 in
/-- Stretch 4 also gathers the second layer's rows at the negative pairs' sources … -/
theorem negSrc_at8 : W8 m ρ c (Proc.devRef .tc main_v63) = rows500k (feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg7)) := by
  have raw : W8 m ρ c (Proc.devRef .tc main_v63)
      = rows500k (W7 m ρ c (Proc.devRef .tc main_v40)) (W7 m ρ c (Proc.devRef .tc main_arg7)) := by
    show StableHlo.after hostOps4 (W7 m ρ c) (Proc.devRef .tc main_v63) = _
    dsimp only [hostOps4]
    after_results_simp <;> rfl
  rw [raw, feat2_at7, arg7_at7]

set_option maxHeartbeats 8000000 in
/-- … and at their destinations. -/
theorem negDst_at8 : W8 m ρ c (Proc.devRef .tc main_v70) = rows500k (feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg8)) := by
  have raw : W8 m ρ c (Proc.devRef .tc main_v70)
      = rows500k (W7 m ρ c (Proc.devRef .tc main_v40)) (W7 m ρ c (Proc.devRef .tc main_arg8)) := by
    show StableHlo.after hostOps4 (W7 m ρ c) (Proc.devRef .tc main_v70) = _
    dsimp only [hostOps4]
    after_results_simp <;> rfl
  rw [raw, feat2_at7, arg8_at7]

/-- After region 4 its output column holds the row-wise dot products of the negative pairs' gathered arrays. -/
theorem negCol_at9 : W9 m ρ c (Proc.devRef .tc main_v71)
    = rowDots 500000 (rows500k (feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg7))) (rows500k (feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg8))) := by
  refine (W9_arr m ρ c 2).trans ((NegScoreRegion.final (V8 m ρ) c).trans ?_)
  show rowDots 500000 (W8 m ρ c (Proc.devRef .tc main_v63)) (W8 m ρ c (Proc.devRef .tc main_v70)) = _
  rw [negSrc_at8, negDst_at8]

set_option maxHeartbeats 8000000 in
/-- THE NEGATIVE SCORES: the last stretch casts that column to a vector. -/
theorem neg_at10 : W10 m ρ c (Proc.devRef .tc main_v72) = negScore (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have raw : W10 m ρ c (Proc.devRef .tc main_v72)
      = (fun i => shapeCast S500000 (W9 m ρ c (Proc.devRef .tc main_v71)) shapeCasts_S500000x1_S500000 i) := by
    show StableHlo.after hostOps5 (W9 m ρ c) (Proc.devRef .tc main_v72) = _
    dsimp only [hostOps5]
    after_results_simp <;> rfl
  rw [raw, negCol_at9]
  exact flat500k _ _

/-- THE POSITIVE SCORES: their buffer is written by stretch 4 and by nothing after it. -/
theorem pos_at10 : W10 m ρ c (Proc.devRef .tc main_v56) = posScore (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  calc W10 m ρ c (Proc.devRef .tc main_v56)
    _ = W9 m ρ c (Proc.devRef .tc main_v56) := by host_keeps hostOps5 main_v56
    _ = W8 m ρ c (Proc.devRef .tc main_v56) := W9_of_ne m ρ c main_v56 (by decide)
    _ = _ := pos_at8 m ρ c

end Cert.KernelIdeal.Fold

end
-- ==== Proof.RefStages.lean ====
/-
  The idealized reference computes the named stages.

  The reference's program is straight-line host code; read one operation at a time, its dense operations are the same
  sums as the stage functions (a product of the node table with a weight matrix is the sum over the contracted axis,
  a broadcast bias is b(q), relu is the maximum with 0), and its data movement is literally the shared gather /
  scatter-add / divide chain. So each of its intermediate values is the stage of the same name, by induction along
  the program: feat0, mean1, feat1, mean2, feat2, and the two score vectors.
-/
import proofs.«176611_j23252952940854_1_alg».proof.Proof.Gen.ReferenceIdeal.Read
import proofs.«176611_j23252952940854_1_alg».proof.Proof.Network

set_option maxRecDepth 16384

noncomputable section

namespace Cert.ReferenceIdeal.Stages

open Cert.ReferenceIdeal.Read
open Cert.KernelIdeal.Dense Cert.KernelIdeal.Spec Cert.KernelIdeal.Glue Cert.KernelIdeal.Net
open Idealize.ShloMosaic Idealize.ShloMosaic.ValueIdx

variable (x0 : Nodes) (x1 x2 x3 x4 : Edges) (x5 x6 : Pos) (x7 x8 : Neg)
  (x9 : Mat) (x10 : Bias) (x11 x12 : Mat) (x13 : Bias) (x14 x15 : Mat) (x16 : Bias)

/-- The reference's relu of its first matrix product plus bias is the projected features. -/
theorem ref_feat0 : val_main_v4 (F := Ideal) x0 x9 x10 = feat0 x0 x9 x10 := by
  funext i
  rw [val_main_v4_apply, val_main_v3_apply, val_main_v0_apply, val_main_v2_apply, val_main_v1_apply,
    val_main_call0_v0_apply, val_main_call0_cst_apply]
  have el : ∀ k : Fin 128, lidx_main_v0 i k = ix2 (row i) k := fun k => funext fun a => by
    match a with | ⟨0, _⟩ => rfl | ⟨1, _⟩ => rfl
  have er : ∀ k : Fin 128, ridx_main_v0 i k = ix2 k (col i) := fun k => funext fun a => by
    match a with | ⟨0, _⟩ => rfl | ⟨1, _⟩ => rfl
  have eb : idx_main_v1 (idx_main_v2 i) = ix1 (col i) := funext fun a => by match a with | ⟨0, _⟩ => rfl
  simp only [el, er, eb]
  rfl

/-- The reference's first mean is the shared chain applied to its projected features. -/
theorem ref_mean1 : val_main_v23 (F := Ideal) x0 x1 x2 x9 x10 = mean1 x0 x1 x2 x9 x10 := by
  unfold mean1
  rw [← ref_feat0]
  rfl

/-- The reference's relu of the two products plus bias, over its own feat0 and mean1, is the first layer. -/
theorem ref_feat1 : val_main_v30 (F := Ideal) x0 x1 x2 x9 x10 x11 x12 x13 = feat1 x0 x1 x2 x9 x10 x11 x12 x13 := by
  unfold feat1
  rw [← ref_feat0, ← ref_mean1]
  funext i
  rw [val_main_v30_apply, val_main_v29_apply, val_main_v26_apply, val_main_v24_apply, val_main_v25_apply,
    val_main_v28_apply, val_main_v27_apply, val_main_call1_v0_apply, val_main_call1_cst_apply]
  have el24 : ∀ k : Fin 128, lidx_main_v24 i k = ix2 (row i) k := fun k => funext fun a => by
    match a with | ⟨0, _⟩ => rfl | ⟨1, _⟩ => rfl
  have er24 : ∀ k : Fin 128, ridx_main_v24 i k = ix2 k (col i) := fun k => funext fun a => by
    match a with | ⟨0, _⟩ => rfl | ⟨1, _⟩ => rfl
  have el25 : ∀ k : Fin 128, lidx_main_v25 i k = ix2 (row i) k := fun k => funext fun a => by
    match a with | ⟨0, _⟩ => rfl | ⟨1, _⟩ => rfl
  have er25 : ∀ k : Fin 128, ridx_main_v25 i k = ix2 k (col i) := fun k => funext fun a => by
    match a with | ⟨0, _⟩ => rfl | ⟨1, _⟩ => rfl
  have eb : idx_main_v27 (idx_main_v28 i) = ix1 (col i) := funext fun a => by match a with | ⟨0, _⟩ => rfl
  simp only [el24, er24, el25, er25, eb]
  rfl

/-- The reference's second mean is the shared chain applied to its first layer. -/
theorem ref_mean2 : val_main_v49 (F := Ideal) x0 x1 x2 x3 x4 x9 x10 x11 x12 x13 = mean2 x0 x1 x2 x3 x4 x9 x10 x11 x12 x13 := by
  unfold mean2
  rw [← ref_feat1]
  rfl

/-- The reference's two products plus bias, over its own feat1 and mean2, is the second layer. -/
theorem ref_feat2 : val_main_v55 (F := Ideal) x0 x1 x2 x3 x4 x9 x10 x11 x12 x13 x14 x15 x16 = feat2 x0 x1 x2 x3 x4 x9 x10 x11 x12 x13 x14 x15 x16 := by
  unfold feat2
  rw [← ref_feat1, ← ref_mean2]
  funext i
  rw [val_main_v55_apply, val_main_v52_apply, val_main_v50_apply, val_main_v51_apply, val_main_v54_apply, val_main_v53_apply]
  have el50 : ∀ k : Fin 128, lidx_main_v50 i k = ix2 (row i) k := fun k => funext fun a => by
    match a with | ⟨0, _⟩ => rfl | ⟨1, _⟩ => rfl
  have er50 : ∀ k : Fin 128, ridx_main_v50 i k = ix2 k (col i) := fun k => funext fun a => by
    match a with | ⟨0, _⟩ => rfl | ⟨1, _⟩ => rfl
  have el51 : ∀ k : Fin 128, lidx_main_v51 i k = ix2 (row i) k := fun k => funext fun a => by
    match a with | ⟨0, _⟩ => rfl | ⟨1, _⟩ => rfl
  have er51 : ∀ k : Fin 128, ridx_main_v51 i k = ix2 k (col i) := fun k => funext fun a => by
    match a with | ⟨0, _⟩ => rfl | ⟨1, _⟩ => rfl
  have eb : idx_main_v53 (idx_main_v54 i) = ix1 (col i) := funext fun a => by match a with | ⟨0, _⟩ => rfl
  simp only [el50, er50, el51, er51, eb]
  rfl

/-- The reference's sum over the feature axis of the product of the two gathered arrays is the positive scores. -/
theorem ref_pos : val_main_v71 (F := Ideal) x0 x1 x2 x3 x4 x5 x6 x9 x10 x11 x12 x13 x14 x15 x16
    = posScore x0 x1 x2 x3 x4 x5 x6 x9 x10 x11 x12 x13 x14 x15 x16 := by
  unfold posScore
  rw [← ref_feat2]
  funext i
  rw [val_main_v71_apply]
  rw [val_main_cst_14_apply]
  show Ideal.ofBits .f32 0x00000000#32 + _ = _
  rw [Ideal.ofBits_zero_f32, zero_add]
  unfold flatDots
  refine Finset.sum_congr rfl fun k _ => ?_
  have ei : idx_main_v71 i k = ix2 (⟨(i 0).val, (i 0).isLt⟩ : Fin 100000) k := funext fun a => by
    match a with | ⟨0, _⟩ => rfl | ⟨1, _⟩ => rfl
  rw [ei]
  rfl

/-- The same for the 500000 negative pairs. -/
theorem ref_neg : val_main_v87 (F := Ideal) x0 x1 x2 x3 x4 x7 x8 x9 x10 x11 x12 x13 x14 x15 x16
    = negScore x0 x1 x2 x3 x4 x7 x8 x9 x10 x11 x12 x13 x14 x15 x16 := by
  unfold negScore
  rw [← ref_feat2]
  funext i
  rw [val_main_v87_apply]
  rw [val_main_cst_19_apply]
  show Ideal.ofBits .f32 0x00000000#32 + _ = _
  rw [Ideal.ofBits_zero_f32, zero_add]
  unfold flatDots
  refine Finset.sum_congr rfl fun k _ => ?_
  have ei : idx_main_v87 i k = ix2 (⟨(i 0).val, (i 0).isLt⟩ : Fin 500000) k := funext fun a => by
    match a with | ⟨0, _⟩ => rfl | ⟨1, _⟩ => rfl
  rw [ei]
  rfl

end Cert.ReferenceIdeal.Stages

end
-- ==== Proof.lean ====
/-
  The certificate of a two-layer mean-aggregation graph network with dot-product link scoring.

  Both programs take a node feature table (100000 × 128), two edge lists of 1600000 edges, 100000 positive and 500000
  negative node pairs, and the weights of a projection and of two combination layers. Both compute

      feat0 = max (feat · w_proj + b_proj) 0
      feat1 = max (feat0 · w_self1 + mean(feat0 over incoming edges) · w_neigh1 + b1) 0
      feat2 =      feat1 · w_self2 + mean(feat1 over incoming edges) · w_neigh2 + b2
      score(u, v) = ∑ k, feat2(u,k) · feat2(v,k)           for the positive and for the negative pairs.

  The kernel program runs each dense stage as a grid of row blocks (20 blocks of 5000 node rows; 10 and 50 blocks of
  10000 pair rows) and the reference runs it as one whole-array operation; the gathers, scatter-adds and the division
  between them are the same host operations in both. At the ideal instance a matrix product is the plain sum over
  the contracted axis whatever the blocking, and row r of every dense result depends on row r of its operands only,
  so the blocks tile the whole-array result. No law of the extended reals beyond 0 + x = x is used: the finiteness of
  the inputs is never needed for the values.

  Kernel side: the run with both score buffers at the folded final contents (KernelRun), each region's output array
  as one whole-array function (ProjRegion, Layer1Region, Layer2Region, PosScoreRegion, NegScoreRegion over the block
  bodies read in Dense and Bodies), and the fold walked stage by stage (Fold). Reference side: its run read one
  operation at a time, each intermediate value identified with the stage of the same name (RefStages). The
  idealization rewrote no operation, so there is nothing to preserve.
-/
import proofs.«176611_j23252952940854_1_alg».proof.Defs
import proofs.«176611_j23252952940854_1_alg».proof.Proof.Gen.Kernel
import proofs.«176611_j23252952940854_1_alg».proof.Proof.Gen.Kernel.Skeleton
import proofs.«176611_j23252952940854_1_alg».proof.Proof.Gen.Kernel.Launch
import proofs.«176611_j23252952940854_1_alg».proof.Proof.Gen.Kernel.Points
import proofs.«176611_j23252952940854_1_alg».proof.Proof.Gen.Kernel.Frame
import proofs.«176611_j23252952940854_1_alg».proof.Proof.Gen.KernelIdeal
import proofs.«176611_j23252952940854_1_alg».proof.Proof.Gen.KernelIdeal.Skeleton
import proofs.«176611_j23252952940854_1_alg».proof.Proof.Gen.KernelIdeal.Launch
import proofs.«176611_j23252952940854_1_alg».proof.Proof.Gen.KernelIdeal.Points
import proofs.«176611_j23252952940854_1_alg».proof.Proof.Gen.KernelIdeal.Frame
import proofs.«176611_j23252952940854_1_alg».proof.Proof.Gen.ReferenceIdeal
import proofs.«176611_j23252952940854_1_alg».proof.Proof.Gen.Pre_finite_inputs
import proofs.«176611_j23252952940854_1_alg».proof.Proof.Gen.ReferenceIdeal.Run
import proofs.«176611_j23252952940854_1_alg».proof.Proof.Gen.ReferenceIdeal.Read
import proofs.«176611_j23252952940854_1_alg».proof.Proof.KernelRun
import proofs.«176611_j23252952940854_1_alg».proof.Proof.Fold
import proofs.«176611_j23252952940854_1_alg».proof.Proof.RefStages
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no grid region: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

set_option maxHeartbeats 2000000 in
/-- From memories that agree on the arguments both idealized programs end with the positive scores at `posScore` and
    the negative scores at `negScore` of the arguments: the kernel program by the fold through its ten segments, the
    reference by its run read stage by stage. -/
theorem algebraic : Cert.algebraic_KernelIdeal_ReferenceIdeal := by
  intro m ρ m' ρ' _ hagree
  refine ⟨fun c => Cert.KernelIdeal.Net.posScore (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.KernelIdeal.Net.negScore (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run Cert.KernelIdeal.defs _ _).mono (fun r h c => ?_) (Cert.KernelIdeal.Results.run (F := Ideal) m ρ)
    exact ⟨(h c).1.trans (Cert.KernelIdeal.Fold.pos_at10 m ρ c), (h c).2.1.trans (Cert.KernelIdeal.Fold.neg_at10 m ρ c), (h c).2.2⟩
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14, a15, a16⟩ := hagree c
    refine ⟨(h c).1.trans ((Cert.ReferenceIdeal.Read.val_main_v71_eq (F := Ideal) m' c).trans ?_),
      (h c).2.1.trans ((Cert.ReferenceIdeal.Read.val_main_v87_eq (F := Ideal) m' c).trans ?_), (h c).2.2⟩
    · rw [Cert.ReferenceIdeal.Stages.ref_pos, a0, a1, a2, a3, a4, a5, a6, a9, a10, a11, a12, a13, a14, a15, a16]
    · rw [Cert.ReferenceIdeal.Stages.ref_neg, a0, a1, a2, a3, a4, a7, a8, a9, a10, a11, a12, a13, a14, a15, a16]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
